-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x768 : Shape := ⟨2, ![32768, 768]⟩
abbrev S768x768 : Shape := ⟨2, ![768, 768]⟩
abbrev S768 : Shape := ⟨1, ![768]⟩
abbrev S_ : Shape := ⟨0, ![]⟩

class Facts : Prop where
  bcast_S_S32768x768 : S_.BroadcastsInDim S32768x768 (![] : Fin 0 → Fin S32768x768.rank)
  reducesTo_S32768x768_S_d0_1 : S32768x768.ReducesTo [0, 1] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  main_v18

def fn {F : FTy → Type} [FloatOps F] (main_arg0 : FVec F S32768x768 .f32) (main_arg1 : FVec F S768x768 .f32) (main_arg2 : FVec F S768 .f32) (main_arg3 : FVec F S768x768 .f32) : IVec S_ 1 :=
  let main_v0 : FVec F S32768x768 .f32 := Host.absf main_arg0
  let main_cst : FVec F S_ .f32 := constant S_ .f32 0x7F800000#32
  let main_v1 : FVec F S32768x768 .f32 := broadcastInDim S32768x768 ![] bcast_S_S32768x768 main_cst
  let main_v2 : IVec S32768x768 1 := cmpf .olt main_v0 main_v1
  let main_c : IVec S_ 1 := constantI S_ 1 1#1
  let main_v3 : IVec S_ 1 := (fun x v => Host.reduce IntOp.andi x v reducesTo_S32768x768_S_d0_1 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_v13 main_v16
-- ==== Kernel.lean ====
abbrev S32768x768 : Shape := ⟨2, ![32768, 768]⟩
abbrev S768x768 : Shape := ⟨2, ![768, 768]⟩
abbrev S768 : Shape := ⟨1, ![768]⟩
abbrev S1x768 : Shape := ⟨2, ![1, 768]⟩
abbrev S2048x768 : Shape := ⟨2, ![2048, 768]⟩

abbrev nBuf : Space → Nat
  | .hbm => 9
  | .vmem => 6
  | .smem => 0
  | _ => 0

abbrev bufTy : (tb : Table) → Fin (tcTables nBuf tb) → BufTy
  | .hbm, ⟨0, _⟩ => ⟨S32768x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768x768, .f32⟩
  | .hbm, ⟨5, _⟩ => ⟨S768x768, .bf16⟩
  | .hbm, ⟨6, _⟩ => ⟨S768x768, .bf16⟩
  | .hbm, ⟨7, _⟩ => ⟨S1x768, .f32⟩
  | .hbm, ⟨8, _⟩ => ⟨S32768x768, .f32⟩
  | .local _ .vmem, ⟨0, _⟩ => ⟨S2048x768, .f32⟩
  | .local _ .vmem, ⟨1, _⟩ => ⟨S2048x768, .f32⟩
  | .local _ .vmem, ⟨2, _⟩ => ⟨S768x768, .bf16⟩
  | .local _ .vmem, ⟨3, _⟩ => ⟨S1x768, .f32⟩
  | .local _ .vmem, ⟨4, _⟩ => ⟨S2048x768, .f32⟩
  | .local _ .vmem, ⟨5, _⟩ => ⟨S2048x768, .f32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  transposes_S768x768_S768x768_1_0 : S768x768.Transposes [1, 0] S768x768
  shapeCasts_S768_S1x768 : S768.ShapeCasts S1x768
  inb_S2048x768_S2048x768_0_0 : ∀ a, (![0, 0] : Fin 2 → Nat) a + S2048x768.size a ≤ S2048x768.size a
  h_S2048x768 : 0 < S2048x768.numel
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S2048x768 : S1x768.Broadcasts S2048x768
  dot_S2048x768_S768x768_S2048x768_1_0_0_1_n_n_wf : DotDims.WF S2048x768 S768x768 S2048x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x768.size a ≤ S32768x768.size a
  hwx0_0 : ∀ i : grid0.Coords, EltTy.bits .f32 = 32 ∨ (Rect.block (s := S32768x768) S2048x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .bf16 = 32 ∨ (Rect.block (s := S768x768) S768x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x768.size a ≤ S32768x768.size a
  hwx0_3 : ∀ i : grid0.Coords, EltTy.bits .f32 = 32 ∨ (Rect.block (s := S32768x768) S2048x768.size (cc0_transform_3 i) (hinb0_3 i)).WholeWords (EltTy.packing .f32)

variable [Facts₀]

def dot_S2048x768_S768x768_S2048x768_1_0_0_1_n_n : DotDims S2048x768 S768x768 S2048x768 where
  lhsContracting := [1]
  rhsContracting := [0]
  lhsNonContracting := [0]
  rhsNonContracting := [1]
  lhsBatch := []
  rhsBatch := []
  wf := dot_S2048x768_S768x768_S2048x768_1_0_0_1_n_n_wf

abbrev win0_0 : Pipeline.Window sig grid0 :=
  Pipeline.Window.ofSpec (Memref.whole main_arg0) S2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v2) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v3) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x768 : Shape := ⟨2, ![32768, 768]⟩
abbrev S768x768 : Shape := ⟨2, ![768, 768]⟩
abbrev S768 : Shape := ⟨1, ![768]⟩
abbrev S1x768 : Shape := ⟨2, ![1, 768]⟩

abbrev nBuf : Space → Nat
  | .hbm => 9
  | .vmem => 0
  | .smem => 0
  | _ => 0

abbrev bufTy : (tb : Table) → Fin (tcTables nBuf tb) → BufTy
  | .hbm, ⟨0, _⟩ => ⟨S32768x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768x768, .f32⟩
  | .hbm, ⟨5, _⟩ => ⟨S32768x768, .f32⟩
  | .hbm, ⟨6, _⟩ => ⟨S1x768, .f32⟩
  | .hbm, ⟨7, _⟩ => ⟨S32768x768, .f32⟩
  | .hbm, ⟨8, _⟩ => ⟨S32768x768, .f32⟩
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S768_S1x768_1 : S768.BroadcastsInDim S1x768 (![1] : Fin 1 → Fin S1x768.rank)
  bcast_S1x768_S32768x768_0_1 : S1x768.BroadcastsInDim S32768x768 (![0, 1] : Fin 2 → Fin S32768x768.rank)
  dot_S32768x768_S768x768_S32768x768_1_1_0_0_n_n_wf : DotDims.WF S32768x768 S768x768 S32768x768 [1] [1] [0] [0] [] []

variable [Facts₀]

def dot_S32768x768_S768x768_S32768x768_1_1_0_0_n_n : DotDims S32768x768 S768x768 S32768x768 where
  lhsContracting := [1]
  rhsContracting := [1]
  lhsNonContracting := [0]
  rhsNonContracting := [0]
  lhsBatch := []
  rhsBatch := []
  wf := dot_S32768x768_S768x768_S32768x768_1_1_0_0_n_n_wf

class Facts : Prop extends Facts₀ where

variable [Facts]
-- ==== Proof.MaskedLinear.lean ====
/-
  The masked linear layer on the extended reals, index by index.

  For rows `x` (32768 × 768), a weight matrix `w` and a mask `mk` (both 768 × 768, indexed (output, input)) and a bias
  vector of length 768, entry `(b, o)` of the result is

      Σ_k x(b, k) · (w(o, k) · mk(o, k))  +  bias(o),

  that is `x · (w ∘ mk)ᵀ + bias`: the masked weight matrix is contracted along its INPUT axis, so no transposed copy
  appears in the formula. Both programs are shown to compute this one function; on the extended reals it needs no
  side condition, being a finite sum of products followed by one addition.
-/
import Idealize.ShloMosaic.PureOps.Ideal
import Idealize.ShloMosaic.Lib.ValueIdx

noncomputable section

open scoped BigOperators

namespace Cert.MaskedLinear

open Idealize.ShloMosaic Idealize.ShloMosaic.ValueIdx

/-- The batch of rows, and the result: 32768 × 768. -/
abbrev Rows : Shape := ⟨2, ![32768, 768]⟩
/-- The weight matrix and its mask: 768 outputs × 768 inputs. -/
abbrev Square : Shape := ⟨2, ![768, 768]⟩
/-- The bias: one entry per output. -/
abbrev Outs : Shape := ⟨1, ![768]⟩

/-- `x · (w ∘ mk)ᵀ + bias`, entry by entry. -/
def maskedLinear (x : FVec Ideal Rows .f32) (w mk : FVec Ideal Square .f32) (bias : FVec Ideal Outs .f32) :
    FVec Ideal Rows .f32 := fun i =>
  (∑ k : Fin 768, x (ix2 (⟨(i 0).val, (i 0).isLt⟩ : Fin 32768) k)
      * (w (ix2 (⟨(i 1).val, (i 1).isLt⟩ : Fin 768) k) * mk (ix2 (⟨(i 1).val, (i 1).isLt⟩ : Fin 768) k)))
    + bias (ix1 (⟨(i 1).val, (i 1).isLt⟩ : Fin 768))

/-- The entry at row `b`, output `o`. -/
theorem maskedLinear_apply (x : FVec Ideal Rows .f32) (w mk : FVec Ideal Square .f32) (bias : FVec Ideal Outs .f32)
    (b : Fin 32768) (o : Fin 768) :
    maskedLinear x w mk bias (ix2 b o)
      = (∑ k : Fin 768, x (ix2 b k) * (w (ix2 o k) * mk (ix2 o k))) + bias (ix1 o) := rfl

end Cert.MaskedLinear

end
-- ==== Proof.ReferenceValue.lean ====
/-
  The reference computes the masked linear layer.

  The reference multiplies the weights by the mask entry by entry, contracts the rows of `x` with the INPUT axis of that
  product (so entry `(b, o)` is the sum over `k` of `x(b, k)` times the product at `(o, k)`), and adds the bias, which it
  first lays out as one row and then repeats down all 32768 rows (so the entry added at `(b, o)` is `bias(o)`).
  Read one operation at a time at an index `(b, o)`, that is the specification's formula term for term.
-/
import proofs.«114445_j1511828488971_2_alg».proof.Proof.Gen.ReferenceIdeal.Read
import proofs.«114445_j1511828488971_2_alg».proof.Proof.MaskedLinear

noncomputable section

open scoped BigOperators

namespace Cert.ReferenceIdeal.RefValue

open Cert.ReferenceIdeal Cert.ReferenceIdeal.Read Cert.MaskedLinear Idealize.ShloMosaic Idealize.ShloMosaic.ValueIdx

/-- The left operand's index for result `(b, o)` and contraction coordinate `k` is `(b, k)`. -/
theorem rows_index (b : Fin 32768) (o k : Fin 768) : lidx_main_v1 (ix2 b o) k = ix2 b k :=
  funext fun a => Fin.ext (by match a with | ⟨0, _⟩ => rfl | ⟨1, _⟩ => rfl)

/-- The right operand's index for result `(b, o)` and contraction coordinate `k` is `(o, k)`: the masked weights are
    contracted along their input axis. -/
theorem weights_index (b : Fin 32768) (o k : Fin 768) : ridx_main_v1 (ix2 b o) k = ix2 o k :=
  funext fun a => Fin.ext (by match a with | ⟨0, _⟩ => rfl | ⟨1, _⟩ => rfl)

/-- The bias entry that the two broadcasts put at `(b, o)` is entry `o`. -/
theorem bias_index (b : Fin 32768) (o : Fin 768) : idx_main_v2 (idx_main_v3 (ix2 b o)) = ix1 o :=
  funext fun a => Fin.ext (by match a with | ⟨0, _⟩ => rfl)

/-- The reference's result, as a function of its four arguments, is the masked linear layer. -/
theorem reference_eq (x : FVec Ideal S32768x768 .f32) (w : FVec Ideal S768x768 .f32) (bias : FVec Ideal S768 .f32)
    (mk : FVec Ideal S768x768 .f32) :
    val_main_v4 (F := Ideal) x w bias mk = maskedLinear x w mk bias := by
  funext i
  obtain ⟨b, o, rfl⟩ : ∃ (b : Fin 32768) (o : Fin 768), i = ix2 b o := ⟨i 0, i 1, eq_ix2 i⟩
  rw [val_main_v4_apply, val_main_v1_apply, val_main_v3_apply, val_main_v2_apply, maskedLinear_apply]
  simp only [rows_index, weights_index, bias_index, val_main_v0_apply, Ideal.addf_def, Ideal.mulf_def]

end Cert.ReferenceIdeal.RefValue

end
-- ==== Proof.HostOperands.lean ====
/-
  What the call's second and third operands hold when the kernel is launched.

  Before the call the program prepares two arrays from its arguments: the weights multiplied by the mask entry by entry,
  narrowed to the 16-bit format and TRANSPOSED (so its entry `(k, o)` is the masked weight at `(o, k)`), and the bias laid
  out as a single row of 768 entries. Here both are read back as those functions of the argument arrays as launched.
-/
import proofs.«114445_j1511828488971_2_alg».proof.Proof.Gen.KernelIdeal.Frame
import Idealize.ShloMosaic.Lib.StableHlo.Run
import Idealize.ShloMosaic.PureOps.Ideal

noncomputable section

namespace Cert.KernelIdeal.Operands

open Cert.KernelIdeal Cert.KernelIdeal.Gen Idealize.ShloMosaic Idealize.ShloMosaic.TcCoe Idealize.SL.Sem
  Idealize.ShloMosaic.StableHlo

variable (m : (ℓ : Loc nD τ sig) → Buf (Elt Ideal) ℓ)

/-- The second operand at launch: the transpose of the narrowed entrywise product of the weights and the mask. -/
theorem weights_operand (c : Dev nD) :
    (V m c main_call0_v2 : S768x768.Idx → EReal)
      = transpose S768x768 [1, 0]
          (truncf (F := Ideal) .bf16
            (mulf (F := Ideal) (m ((c : Thread nD τ).loc main_arg1)) (m ((c : Thread nD τ).loc main_arg3))) bitsLt_bf16_f32)
          transposes_S768x768_S768x768_1_0 := by
  dsimp only [Gen.V, Gen.hostOps0]
  after_results
  rfl

/-- The third operand at launch: the bias vector as one row. -/
theorem bias_operand (c : Dev nD) :
    (V m c main_call0_v3 : S1x768.Idx → EReal)
      = shapeCast S1x768 (m ((c : Thread nD τ).loc main_arg2)) shapeCasts_S768_S1x768 := by
  dsimp only [Gen.V, Gen.hostOps0]
  after_results
  rfl

end Cert.KernelIdeal.Operands

end
-- ==== Proof.LibPlainDot.lean ====
/-
  A plain matrix product read at an index.

  The dimension numbers of the product of an `[R, K]` array with a `[K, C]` array into `[R, C]` — contract the
  left operand's axis 1 with the right operand's axis 0, no batch axes — are the record `plainDot` below, whose
  side condition is a parameter: any record with the same lists is one of them by unfolding. On the extended reals
  the product into a zero accumulator, read at `(p, q)`, is the sum over `k` of `lhs (p, k) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibPlainDot

open Idealize.ShloMosaic Idealize.ShloMosaic.ValueIdx

/-- The dimension numbers of a plain `[R, K] × [K, C] → [R, C]` product. -/
abbrev plainDot (R K C : Nat)
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

section
variable {R K C : Nat} (wf : DotDims.WF ⟨2, ![R, K]⟩ ⟨2, ![K, C]⟩ ⟨2, ![R, C]⟩ [1] [0] [0] [1] [] [])

/-- The left operand's index for output `(p, q)` and contraction coordinate `k` is `(p, k)`. -/
theorem plainDot_lhsIdx (p : Fin R) (q : Fin C) (k : Fin K) :
    (plainDot R K C wf).lhsIdx (ix2 p q) ((contrEquiv1 (plainDot R K C wf) K rfl rfl).symm k) = ix2 p k := by
  have hk := contrEquiv1_symm_val (plainDot R K C wf) K rfl rfl k
  funext a
  refine Fin.ext ?_
  match a with
  | ⟨0, _⟩ =>
    show ((plainDot R K C wf).lhsIdx (ix2 p q) ((contrEquiv1 (plainDot R K C wf) K rfl rfl).symm k) 0).val = p.val
    unfold DotDims.lhsIdx
    rw [dif_neg (show ¬(0 : Fin 2) ∈ (plainDot R K C wf).lhsBatch from List.not_mem_nil),
      dif_pos (show (0 : Fin 2) ∈ (plainDot R K C wf).lhsNonContracting from List.mem_singleton.mpr rfl)]
    rfl
  | ⟨1, _⟩ =>
    exact ((plainDot R K C wf).lhsIdx_val_of_single (cl := (1 : Fin 2)) rfl (ix2 p q) _).trans hk

/-- The right operand's index for output `(p, q)` and contraction coordinate `k` is `(k, q)`. -/
theorem plainDot_rhsIdx (p : Fin R) (q : Fin C) (k : Fin K) :
    (plainDot R K C wf).rhsIdx (ix2 p q) ((contrEquiv1 (plainDot R K C wf) K rfl rfl).symm k) = ix2 k q := by
  have hk := contrEquiv1_symm_val (plainDot R K C wf) K rfl rfl k
  funext a
  refine Fin.ext ?_
  match a with
  | ⟨0, _⟩ =>
    exact ((plainDot R K C wf).rhsIdx_val_of_single (cr := (0 : Fin 2)) rfl (ix2 p q) _).trans hk
  | ⟨1, _⟩ =>
    show ((plainDot R K C wf).rhsIdx (ix2 p q) ((contrEquiv1 (plainDot R K C wf) K rfl rfl).symm k) 1).val = q.val
    unfold DotDims.rhsIdx
    rw [dif_neg (show ¬(1 : Fin 2) ∈ (plainDot R K C wf).rhsBatch from List.not_mem_nil),
      dif_pos (show (1 : Fin 2) ∈ (plainDot R K C wf).rhsNonContracting from List.mem_singleton.mpr rfl)]
    rfl

/-- THE PLAIN PRODUCT INTO A ZERO ACCUMULATOR AT `(p, q)`: the sum over `k` of `lhs (p, k) * rhs (k, q)`. -/
theorem matmul_zero_apply {φ₁ φ₂ : FTy} (prec : Option ContractPrecision)
    (lhs : FVec Ideal ⟨2, ![R, K]⟩ φ₁) (rhs : FVec Ideal ⟨2, ![K, C]⟩ φ₂) (p : Fin R) (q : Fin C) :
    FloatOps.matmul (plainDot R K C wf) prec lhs rhs (constant ⟨2, ![R, C]⟩ .f32 0x00000000#32) (ix2 p q)
      = ∑ k : Fin K, lhs (ix2 p k) * rhs (ix2 k q) := by
  rw [Ideal.matmul_constant_zero_apply, ← Equiv.sum_comp (contrEquiv1 (plainDot R K C wf) K rfl rfl).symm]
  refine Finset.sum_congr rfl fun k _ => ?_
  rw [plainDot_lhsIdx wf p q k, plainDot_rhsIdx wf p q k]

end

end Cert.LibPlainDot

end
-- ==== Proof.BlockValue.lean ====
/-
  One block of the kernel's output, entry by entry.

  At each grid point the body holds a block of 2048 rows of `x`, the whole 768 × 768 second operand `wT` and the bias row.
  It narrows the rows (the identity on the extended reals), multiplies them by `wT` as plain matrices into a zero
  accumulator, and adds the bias row repeated down the 2048 rows. So entry `(p, q)` of what it stores is

      Σ_k x(p, k) · wT(k, q)  +  brow(0, q).
-/
import proofs.«114445_j1511828488971_2_alg».proof.Proof.Gen.KernelIdeal.Skeleton
import proofs.«114445_j1511828488971_2_alg».proof.Proof.LibPlainDot
import Idealize.ShloMosaic.Lib.ValueLayout

noncomputable section

open scoped BigOperators

namespace Cert.KernelIdeal.BlockValue

open Cert.KernelIdeal Cert.KernelIdeal.Gen Idealize.ShloMosaic Idealize.ShloMosaic.ValueIdx

/-- The stored block at `(p, q)`: the row `p` of the loaded rows against column `q` of the second operand, plus the
    bias row's entry `q`. -/
theorem block_value (x : FVec Ideal S2048x768 .f32) (wT : FVec Ideal S768x768 .bf16) (brow : FVec Ideal S1x768 .f32)
    (p : Fin 2048) (q : Fin 768) :
    k0_pay1 (F := Ideal) x wT brow (ix2 p q)
      = (∑ k : Fin 768, x (ix2 p k) * wT (ix2 k q)) + brow (ix2 (0 : Fin 1) q) := by
  have hw : shapeCast S768x768 wT shapeCasts_S768x768_S768x768 = wT := shapeCast_self _ _
  have hb : shapeCast S1x768 brow shapeCasts_S1x768_S1x768 = brow := shapeCast_self _ _
  unfold k0_pay1
  rw [hw, hb]
  exact congrArg₂ (· + ·)
    (Cert.LibPlainDot.matmul_zero_apply (R := 2048) (K := 768) (C := 768)
      dot_S2048x768_S768x768_S2048x768_1_0_0_1_n_n.wf none (truncf (F := Ideal) .bf16 x bitsLt_bf16_f32) wT p q)
    (broadcastTo_1b_ab_apply brow broadcasts_S1x768_S2048x768 p q)

end Cert.KernelIdeal.BlockValue

end
-- ==== Proof.KernelValue.lean ====
/-
  The kernel's result array is the masked linear layer.

  The grid has 16 points. Point `t` is handed rows `2048·t … 2048·t + 2047` of `x`, the whole second operand and the bias
  row, and writes back rows `2048·t … 2048·t + 2047` of the result. By the block's value, row `p` of what it writes, at
  output `q`, is  Σ_k x(2048·t + p, k) · wT(k, q) + brow(0, q); the second operand is the transposed masked weights, so
  wT(k, q) = w(q, k) · mk(q, k), and the bias row's entry `q` is bias(q): that is the masked linear layer at
  `(2048·t + p, q)`. The 16 blocks of 2048 rows tile the 32768 rows — row `r` lies in block `r / 2048` — so the whole
  result array is that function.
-/
import proofs.«114445_j1511828488971_2_alg».proof.Proof.Gen.KernelIdeal.Value
import proofs.«114445_j1511828488971_2_alg».proof.Proof.HostOperands
import proofs.«114445_j1511828488971_2_alg».proof.Proof.BlockValue
import proofs.«114445_j1511828488971_2_alg».proof.Proof.MaskedLinear
import Idealize.ShloMosaic.Lib.ValueLayout

noncomputable section

open scoped BigOperators

namespace Cert.KernelIdeal.ArrayValue

open Cert.KernelIdeal Cert.KernelIdeal.Gen Cert.KernelIdeal.Value Cert.KernelIdeal.Operands Cert.KernelIdeal.BlockValue
  Cert.MaskedLinear Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- Every load and the store of the body start at the origin of their buffer. -/
theorem origin : (![0, 0] : Fin 2 → Nat) = fun _ => 0 := funext fun a => by fin_cases a <;> rfl

/-! ## One point, over plain arrays -/

/-- If a block `x` is rows `2048·r + p` of `X`, `wT` is the transposed entrywise product of `W` and `Mk`, and `brow` is `B`
    as a row, then the body's stored block at `(p, q)` is the masked linear layer of `X`, `W`, `Mk`, `B` at
    `(2048·r + p, q)`. -/
theorem point_value (X : FVec Ideal S32768x768 .f32) (W Mk : FVec Ideal S768x768 .f32) (B : FVec Ideal S768 .f32)
    (x : FVec Ideal S2048x768 .f32) (wT : FVec Ideal S768x768 .bf16) (brow : FVec Ideal S1x768 .f32)
    (r : Nat) (hr : r * 2048 + 2048 ≤ 32768)
    (hx : ∀ (p : Fin 2048) (k : Fin 768),
      x (ix2 p k) = X (ix2 (⟨r * 2048 + p.val, Nat.lt_of_lt_of_le (Nat.add_lt_add_left p.isLt _) hr⟩ : Fin 32768) k))
    (hw : ∀ k q : Fin 768, wT (ix2 k q) = W (ix2 q k) * Mk (ix2 q k))
    (hb : ∀ q : Fin 768, brow (ix2 (0 : Fin 1) q) = B (ix1 q))
    (p : Fin 2048) (q : Fin 768) :
    k0_pay1 (F := Ideal) x wT brow (ix2 p q)
      = maskedLinear X W Mk B (ix2 (⟨r * 2048 + p.val, Nat.lt_of_lt_of_le (Nat.add_lt_add_left p.isLt _) hr⟩ : Fin 32768) q) := by
  rw [block_value, maskedLinear_apply]
  simp only [hx, hw, hb]

/-! ## The index maps, decided over the 16 points -/

/-- Point `t`'s block of `x` and of the result is block row `t`; the second operand and the bias row are whole. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A point's 2048 rows end inside the 32768. -/
theorem rows_in (t : Fin cfg0.N) : t.val * 2048 + 2048 ≤ 32768 := by
  have : t.val < 16 := t.isLt
  omega

/-! ## The three input blocks at a point -/

/-- The block of `x` at point `t`, entry `(p, k)`, is `x` at row `2048·t + p`. -/
theorem rows_block (c : Dev nD) (t : Fin cfg0.N) (p : Fin 2048) (k : Fin 768) :
    iblk m c 0 t (ix2 p k)
      = m ((c : Thread nD τ).loc main_arg0)
          (ix2 (⟨t.val * 2048 + p.val, Nat.lt_of_lt_of_le (Nat.add_lt_add_left p.isLt _) (rows_in t)⟩ : Fin 32768) k) := by
  obtain ⟨e0, e1, -, -, -, -, -, -⟩ := block_indices t
  show V m c main_arg0 (((cfg0.win 0).blk t).view.emb (ix2 p k)) = _
  rw [V_main_arg0]
  refine congrArg (m ((c : Thread nD τ).loc main_arg0)) ?_
  funext a; apply Fin.ext
  match a with
  | ⟨0, _⟩ => show win0_0.index t (0 : Fin 2) * 2048 + 1 * p.val = t.val * 2048 + p.val; omega
  | ⟨1, _⟩ => show win0_0.index t (1 : Fin 2) * 768 + 1 * k.val = k.val; omega

/-- The second operand's block at any point is the whole operand: entry `(k, q)` is the masked weight at `(q, k)`. -/
theorem weights_block (c : Dev nD) (t : Fin cfg0.N) (k q : Fin 768) :
    iblk m c 1 t (ix2 k q)
      = mulf (F := Ideal) (φ := .f32) (m ((c : Thread nD τ).loc main_arg1)) (m ((c : Thread nD τ).loc main_arg3))
          (ix2 q k) := by
  obtain ⟨-, -, e2, e3, -, -, -, -⟩ := block_indices t
  show V m c main_call0_v2 (((cfg0.win 1).blk t).view.emb (ix2 k q)) = _
  have he : ((cfg0.win 1).blk t).view.emb (ix2 k q) = ix2 k q := by
    funext a; apply Fin.ext
    match a with
    | ⟨0, _⟩ => show win0_1.index t (0 : Fin 2) * 768 + 1 * k.val = k.val; omega
    | ⟨1, _⟩ => show win0_1.index t (1 : Fin 2) * 768 + 1 * q.val = q.val; omega
  rw [he, weights_operand]
  exact transpose_ix2_apply _ transposes_S768x768_S768x768_1_0 k q

/-- The bias row's block at any point is the whole row: entry `(0, q)` is `bias(q)`. -/
theorem bias_block (c : Dev nD) (t : Fin cfg0.N) (q : Fin 768) :
    iblk m c 2 t (ix2 (0 : Fin 1) q) = m ((c : Thread nD τ).loc main_arg2) (ix1 q) := by
  obtain ⟨-, -, -, -, e4, e5, -, -⟩ := block_indices t
  show V m c main_call0_v3 (((cfg0.win 2).blk t).view.emb (ix2 (0 : Fin 1) q)) = _
  have he : ((cfg0.win 2).blk t).view.emb (ix2 (0 : Fin 1) q) = ix2 (0 : Fin 1) q := by
    funext a; apply Fin.ext
    match a with
    | ⟨0, _⟩ => show win0_2.index t (0 : Fin 2) * 1 + 1 * 0 = 0; omega
    | ⟨1, _⟩ => show win0_2.index t (1 : Fin 2) * 768 + 1 * q.val = q.val; omega
  rw [he, bias_operand]
  exact shapeCast_a_1a_apply _ shapeCasts_S768_S1x768 (0 : Fin 1) q

/-! ## What a point writes back, and the whole array -/

/-- The masked linear layer of the argument arrays as launched, on core `c`. -/
abbrev result (c : Dev nD) : S32768x768.Idx → EReal :=
  maskedLinear (m ((c : Thread nD τ).loc main_arg0)) (m ((c : Thread nD τ).loc main_arg1))
    (m ((c : Thread nD τ).loc main_arg3)) (m ((c : Thread nD τ).loc main_arg2))

/-- What point `t` writes back is block `t` of the masked linear layer. -/
theorem written_back (c : Dev nD) (t : Fin cfg0.N) :
    (dats m 0 c).flushed 3 t = ((cfg0.win 3).blk t).view.read (Elt Ideal) (result m c) := by
  rw [flushed3]
  unfold out0_3
  rw [View.canon_unit_zero origin]
  simp only [View.ld_unit_zero (S := S2048x768) origin, View.ld_unit_zero (S := S768x768) origin,
    View.ld_unit_zero (S := S1x768) origin]
  obtain ⟨-, -, -, -, -, -, e6, e7⟩ := block_indices t
  funext j
  obtain ⟨p, q, rfl⟩ : ∃ (p : Fin 2048) (q : Fin 768), j = ix2 p q := ⟨j 0, j 1, eq_ix2 j⟩
  show k0_pay1 (F := Ideal) (iblk m c 0 t) (iblk m c 1 t) (iblk m c 2 t) (ix2 p q)
    = result m c (((cfg0.win 3).blk t).view.emb (ix2 p q))
  have he : ((cfg0.win 3).blk t).view.emb (ix2 p q)
      = ix2 (⟨t.val * 2048 + p.val, Nat.lt_of_lt_of_le (Nat.add_lt_add_left p.isLt _) (rows_in t)⟩ : Fin 32768) q := by
    funext a; apply Fin.ext
    match a with
    | ⟨0, _⟩ => show win0_3.index t (0 : Fin 2) * 2048 + 1 * p.val = t.val * 2048 + p.val; omega
    | ⟨1, _⟩ => show win0_3.index t (1 : Fin 2) * 768 + 1 * q.val = q.val; omega
  rw [he]
  exact point_value _ _ _ _ (iblk m c 0 t) (iblk m c 1 t) (iblk m c 2 t) t.val (rows_in t)
    (rows_block m c t) (weights_block m c t) (bias_block m c t) p q

/-- An index of the result is in point `t`'s block iff each coordinate is in the block's range on its axis. -/
theorem mem_block (t : Fin cfg0.N) (i : S32768x768.Idx) :
    i ∈ ((cfg0.win 3).blk t).view.set ↔ ∀ a : Fin 2, win0_3.index t a * S2048x768.size a ≤ (i a).val
      ∧ (i a).val < win0_3.index t a * S2048x768.size a + S2048x768.size a := by
  show i ∈ ((View.whole main_v0).slice (win0_3.rect t)).set ↔ _
  rw [View.set_slice_whole, Rect.mem_set_unit]
  exact Iff.rfl

/-- Every index of the result is in some point's block: row `r` is in block `r / 2048`. -/
theorem covered (i : S32768x768.Idx) :
    ∃ t : Fin cfg0.N, (cfg0.win 3).flush t = true ∧ i ∈ ((cfg0.win 3).blk t).view.set := by
  have hi0 : (i 0).val < 32768 := (i 0).isLt
  have hi1 : (i 1).val < 768 := (i 1).isLt
  let t : Fin cfg0.N := ⟨(i 0).val / 2048, by show (i 0).val / 2048 < 16; omega⟩
  have ht : t.val = (i 0).val / 2048 := rfl
  obtain ⟨-, -, -, -, -, -, e6, e7⟩ := block_indices t
  refine ⟨t, flush0_3 t, ?_⟩
  rw [mem_block]
  intro a
  match a with
  | ⟨0, _⟩ =>
    show win0_3.index t (0 : Fin 2) * 2048 ≤ (i 0).val ∧ (i 0).val < win0_3.index t (0 : Fin 2) * 2048 + 2048
    omega
  | ⟨1, _⟩ =>
    show win0_3.index t (1 : Fin 2) * 768 ≤ (i 1).val ∧ (i 1).val < win0_3.index t (1 : Fin 2) * 768 + 768
    omega

/-- The result array after the run is the masked linear layer of the arguments. -/
theorem final (c : Dev nD) : (dats m 0 c).arrAt 3 cfg0.N = result m c :=
  (dats m 0 c).arrAt_eq_of_cover 3 (result m c) (fun t _ => written_back m c t) covered

/-- Every weakly fair execution of the kernel's program ends with the result array at the masked linear layer of the
    argument arrays, and the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.ArrayValue

end
-- ==== Proof.lean ====
/-
  A masked linear layer computed by a tiled kernel equals its plain definition, on the extended reals.

  Both programs take rows `x` (32768 × 768), weights `w` and a mask `mk` (768 × 768, indexed (output, input)) and a bias
  of length 768. The reference forms `w ∘ mk` entry by entry, contracts the rows of `x` with its input axis and adds the
  bias along every row. The kernel's program forms the same product, narrows it to a 16-bit format and transposes it
  once, lays the bias out as a row, and then, for each of 16 blocks of 2048 rows of `x`, multiplies the (narrowed) block by
  the transposed matrix into a zero accumulator and adds the bias row. On the extended reals a change of float format is
  the identity and both matrix products are plain finite sums, so entry `(b, o)` of either result is

      Σ_k x(b, k) · (w(o, k) · mk(o, k))  +  bias(o)

  (`Cert.MaskedLinear.maskedLinear`). The reference side is `Cert.ReferenceIdeal.RefValue.reference_eq`; the kernel side
  is `Cert.KernelIdeal.ArrayValue.run`: the value of one block, the two prepared operands read back, and the 16 blocks
  tiling the rows. No law beyond re-indexing the sum is used, so the finiteness of the inputs is never opened. The kernel
  read on the extended reals is the kernel's own text with no operation rewritten, so nothing further is to be preserved.
-/
import proofs.«114445_j1511828488971_2_alg».proof.Defs
import proofs.«114445_j1511828488971_2_alg».proof.Proof.Gen.Kernel
import proofs.«114445_j1511828488971_2_alg».proof.Proof.Gen.Kernel.Frame
import proofs.«114445_j1511828488971_2_alg».proof.Proof.Gen.KernelIdeal
import proofs.«114445_j1511828488971_2_alg».proof.Proof.Gen.KernelIdeal.Frame
import proofs.«114445_j1511828488971_2_alg».proof.Proof.Gen.KernelIdeal.Value
import proofs.«114445_j1511828488971_2_alg».proof.Proof.Gen.ReferenceIdeal
import proofs.«114445_j1511828488971_2_alg».proof.Proof.Gen.ReferenceIdeal.Run
import proofs.«114445_j1511828488971_2_alg».proof.Proof.Gen.ReferenceIdeal.Read
import proofs.«114445_j1511828488971_2_alg».proof.Proof.Gen.Pre_finite_inputs
import proofs.«114445_j1511828488971_2_alg».proof.Proof.ReferenceValue
import proofs.«114445_j1511828488971_2_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and leaves its arguments as they were: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories that agree on the four arguments, both programs end with the masked linear layer of those arguments
    in their result arrays. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.reference_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
